-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x1024x1024 : Shape := ⟨4, ![4, 16, 1024, 1024]⟩
abbrev S4x1024 : Shape := ⟨2, ![4, 1024]⟩
abbrev S6x4 : Shape := ⟨2, ![6, 4]⟩
abbrev S_ : Shape := ⟨0, ![]⟩
abbrev S6x1 : Shape := ⟨2, ![6, 1]⟩

class Facts : Prop where
  bcast_S_S4x16x1024x1024 : S_.BroadcastsInDim S4x16x1024x1024 (![] : Fin 0 → Fin S4x16x1024x1024.rank)
  reducesTo_S4x16x1024x1024_S_d0_1_2_3 : S4x16x1024x1024.ReducesTo [0, 1, 2, 3] S_
  h_S_ : 0 < S_.numel
  bcast_S_S6x4 : S_.BroadcastsInDim S6x4 (![] : Fin 0 → Fin S6x4.rank)
  reducesTo_S6x4_S_d0_1 : S6x4.ReducesTo [0, 1] S_
  slices_S6x4_S6x1_0_0 : S6x4.Slices ![0, 0] S6x1
  slices_S6x4_S6x1_0_1 : S6x4.Slices ![0, 1] S6x1
  reducesTo_S6x1_S_d0_1 : S6x1.ReducesTo [0, 1] S_
  slices_S6x4_S6x1_0_2 : S6x4.Slices ![0, 2] S6x1
  slices_S6x4_S6x1_0_3 : S6x4.Slices ![0, 3] S6x1

variable [Facts]

def fn_part1 {F : FTy → Type} [FloatOps F] (main_v13 : IVec S_ 1) (main_v17 : IVec S_ 1) : IVec S_ 1 :=
  let main_v18 : IVec S_ 1 := andi main_v13 main_v17
  main_v18

def fn {F : FTy → Type} [FloatOps F] (main_arg0 : FVec F S4x16x1024x1024 .f32) (main_arg1 : IVec S4x1024 32) (main_arg2 : FVec F S6x4 .f32) : IVec S_ 1 :=
  let main_v0 : FVec F S4x16x1024x1024 .f32 := Host.absf main_arg0
  let main_cst : FVec F S_ .f32 := constant S_ .f32 0x7F800000#32
  let main_v1 : FVec F S4x16x1024x1024 .f32 := broadcastInDim S4x16x1024x1024 ![] bcast_S_S4x16x1024x1024 main_cst
  let main_v2 : IVec S4x16x1024x1024 1 := cmpf .olt main_v0 main_v1
  let main_c : IVec S_ 1 := constantI S_ 1 1#1
  let main_v3 : IVec S_ 1 := (fun x v => Host.reduce IntOp.andi x v reducesTo_S4x16x1024x1024_S_d0_1_2_3 h_S_) main_v2 main_c
  let main_v4 : FVec F S6x4 .f32 := Host.absf main_arg2
  let main_cst_0 : FVec F S_ .f32 := constant S_ .f32 0x7F800000#32
  let main_v5 : FVec F S6x4 .f32 := broadcastInDim S6x4 ![] bcast_S_S6x4 main_cst_0
  let main_v6 : IVec S6x4 1 := cmpf .olt main_v4 main_v5
  let main_c_1 : IVec S_ 1 := constantI S_ 1 1#1
  let main_v7 : IVec S_ 1 := (fun x v => Host.reduce IntOp.andi x v reducesTo_S6x4_S_d0_1 h_S_) main_v6 main_c_1
  let main_v8 : IVec S_ 1 := andi main_v3 main_v7
  let main_v9 : FVec F S6x1 .f32 := (extractStridedSlice S6x1 ![0, 0] · slices_S6x4_S6x1_0_0) main_arg2
  let main_v10 : FVec F S6x1 .f32 := (extractStridedSlice S6x1 ![0, 1] · slices_S6x4_S6x1_0_1) main_arg2
  let main_v11 : IVec S6x1 1 := cmpf .ole main_v9 main_v10
  let main_c_2 : IVec S_ 1 := constantI S_ 1 1#1
  let main_v12 : IVec S_ 1 := (fun x v => Host.reduce IntOp.andi x v reducesTo_S6x1_S_d0_1 h_S_) main_v11 main_c_2
  let main_v13 : IVec S_ 1 := andi main_v8 main_v12
  let main_v14 : FVec F S6x1 .f32 := (extractStridedSlice S6x1 ![0, 2] · slices_S6x4_S6x1_0_2) main_arg2
  let main_v15 : FVec F S6x1 .f32 := (extractStridedSlice S6x1 ![0, 3] · slices_S6x4_S6x1_0_3) main_arg2
  let main_v16 : IVec S6x1 1 := cmpf .olt main_v14 main_v15
  let main_c_3 : IVec S_ 1 := constantI S_ 1 1#1
  let main_v17 : IVec S_ 1 := (fun x v => Host.reduce IntOp.andi x v reducesTo_S6x1_S_d0_1 h_S_) main_v16 main_c_3
  fn_part1 (F := F) main_v13 main_v17
-- ==== Kernel.lean ====
abbrev S4x16x1024x1024 : Shape := ⟨4, ![4, 16, 1024, 1024]⟩
abbrev S4x1024 : Shape := ⟨2, ![4, 1024]⟩
abbrev S6x4 : Shape := ⟨2, ![6, 4]⟩
abbrev S_ : Shape := ⟨0, ![]⟩
abbrev S4x1024x1 : Shape := ⟨3, ![4, 1024, 1]⟩
abbrev S4x1024x4 : Shape := ⟨3, ![4, 1024, 4]⟩
abbrev S4x1x1x1024 : Shape := ⟨4, ![4, 1, 1, 1024]⟩
abbrev S1x16x64x1024 : Shape := ⟨4, ![1, 16, 64, 1024]⟩
abbrev S1x1x1x1024 : Shape := ⟨4, ![1, 1, 1, 1024]⟩

abbrev nBuf : Space → Nat
  | .hbm => 39
  | .vmem => 12
  | .smem => 0
  | _ => 0

abbrev bufTy : (tb : Table) → Fin (tcTables nBuf tb) → BufTy
  | .hbm, ⟨0, _⟩ => ⟨S4x16x1024x1024, .f32⟩
  | .hbm, ⟨1, _⟩ => ⟨S4x1024, .i32⟩
  | .hbm, ⟨2, _⟩ => ⟨S6x4, .f32⟩
  | .hbm, ⟨3, _⟩ => ⟨S_, .i32⟩
  | .hbm, ⟨4, _⟩ => ⟨S4x1024, .i32⟩
  | .hbm, ⟨5, _⟩ => ⟨S4x1024, .i1⟩
  | .hbm, ⟨6, _⟩ => ⟨S_, .i32⟩
  | .hbm, ⟨7, _⟩ => ⟨S4x1024, .i32⟩
  | .hbm, ⟨8, _⟩ => ⟨S4x1024, .i32⟩
  | .hbm, ⟨9, _⟩ => ⟨S4x1024, .i32⟩
  | .hbm, ⟨10, _⟩ => ⟨S4x1024x1, .i32⟩
  | .hbm, ⟨11, _⟩ => ⟨S4x1024x4, .f32⟩
  | .hbm, ⟨12, _⟩ => ⟨S4x1024x1, .f32⟩
  | .hbm, ⟨13, _⟩ => ⟨S4x1024, .f32⟩
  | .hbm, ⟨14, _⟩ => ⟨S4x1024x1, .f32⟩
  | .hbm, ⟨15, _⟩ => ⟨S4x1024, .f32⟩
  | .hbm, ⟨16, _⟩ => ⟨S4x1024x1, .f32⟩
  | .hbm, ⟨17, _⟩ => ⟨S4x1024, .f32⟩
  | .hbm, ⟨18, _⟩ => ⟨S4x1024x1, .f32⟩
  | .hbm, ⟨19, _⟩ => ⟨S4x1024, .f32⟩
  | .hbm, ⟨20, _⟩ => ⟨S4x1024, .i1⟩
  | .hbm, ⟨21, _⟩ => ⟨S4x1024, .f32⟩
  | .hbm, ⟨22, _⟩ => ⟨S4x1024, .f32⟩
  | .hbm, ⟨23, _⟩ => ⟨S_, .f32⟩
  | .hbm, ⟨24, _⟩ => ⟨S_, .f32⟩
  | .hbm, ⟨25, _⟩ => ⟨S4x1024, .f32⟩
  | .hbm, ⟨26, _⟩ => ⟨S4x1024, .f32⟩
  | .hbm, ⟨27, _⟩ => ⟨S4x1024, .f32⟩
  | .hbm, ⟨28, _⟩ => ⟨S_, .f32⟩
  | .hbm, ⟨29, _⟩ => ⟨S_, .f32⟩
  | .hbm, ⟨30, _⟩ => ⟨S4x1024, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S4x1x1x1024, .f32⟩
  | .hbm, ⟨35, _⟩ => ⟨S4x1x1x1024, .f32⟩
  | .hbm, ⟨36, _⟩ => ⟨S4x1x1x1024, .f32⟩
  | .hbm, ⟨37, _⟩ => ⟨S4x1x1x1024, .f32⟩
  | .hbm, ⟨38, _⟩ => ⟨S4x16x1024x1024, .f32⟩
  | .local _ .vmem, ⟨0, _⟩ => ⟨S1x16x64x1024, .f32⟩
  | .local _ .vmem, ⟨1, _⟩ => ⟨S1x16x64x1024, .f32⟩
  | .local _ .vmem, ⟨2, _⟩ => ⟨S1x1x1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1x1x1024, .f32⟩
  | .local _ .vmem, ⟨7, _⟩ => ⟨S1x1x1x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S1x16x64x1024, .f32⟩
  | .local _ .vmem, ⟨11, _⟩ => ⟨S1x16x64x1024, .f32⟩
  | _, _ => ⟨S4x16x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst : Ref sig .tc := ⟨.hbm, 23, rfl⟩
abbrev main_call0_v0 : Ref sig .tc := ⟨.hbm, 24, rfl⟩
abbrev main_call0_v1 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_call1_v0 : Ref sig .tc := ⟨.hbm, 29, rfl⟩
abbrev main_call1_v1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x16x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x16x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S_S4x1024 : S_.BroadcastsInDim S4x1024 (![] : Fin 0 → Fin S4x1024.rank)
  bcast_S4x1024_S4x1024x1_0_1 : S4x1024.BroadcastsInDim S4x1024x1 (![0, 1] : Fin 2 → Fin S4x1024x1.rank)
  slices_S4x1024x4_S4x1024x1_0_0_0 : S4x1024x4.Slices ![0, 0, 0] S4x1024x1
  shapeCasts_S4x1024x1_S4x1024 : S4x1024x1.ShapeCasts S4x1024
  slices_S4x1024x4_S4x1024x1_0_0_1 : S4x1024x4.Slices ![0, 0, 1] S4x1024x1
  slices_S4x1024x4_S4x1024x1_0_0_2 : S4x1024x4.Slices ![0, 0, 2] S4x1024x1
  slices_S4x1024x4_S4x1024x1_0_0_3 : S4x1024x4.Slices ![0, 0, 3] S4x1024x1
  shapeCasts_S4x1024_S4x1x1x1024 : S4x1024.ShapeCasts S4x1x1x1024
  inb_S1x16x64x1024_S1x16x64x1024_0_0_0_0 : ∀ a, (![0, 0, 0, 0] : Fin 4 → Nat) a + S1x16x64x1024.size a ≤ S1x16x64x1024.size a
  h_S1x16x64x1024 : 0 < S1x16x64x1024.numel
  inb_S1x1x1x1024_S1x1x1x1024_0_0_0_0 : ∀ a, (![0, 0, 0, 0] : Fin 4 → Nat) a + S1x1x1x1024.size a ≤ S1x1x1x1024.size a
  h_S1x1x1x1024 : 0 < S1x1x1x1024.numel
  shapeCasts_S1x1x1x1024_S1x1x1x1024 : S1x1x1x1024.ShapeCasts S1x1x1x1024
  broadcasts_S1x1x1x1024_S1x16x64x1024 : S1x1x1x1024.Broadcasts S1x16x64x1024
  gather_S6x4_S4x1024x1_S4x1024x4_2_0_n_n_0_2_14_wf : GatherDims.WF S6x4 S4x1024x1 S4x1024x4 [2] [0] [] [0] [] 2 ![1, 4]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x64x1024.size a ≤ S4x16x1024x1024.size a
  hwx0_0 : ∀ i : grid0.Coords, EltTy.bits .f32 = 32 ∨ (Rect.block (s := S4x16x1024x1024) S1x16x64x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1x1024.size a ≤ S4x1x1x1024.size a
  hwx0_1 : ∀ i : grid0.Coords, EltTy.bits .f32 = 32 ∨ (Rect.block (s := S4x1x1x1024) S1x1x1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1x1024.size a ≤ S4x1x1x1024.size a
  hwx0_2 : ∀ i : grid0.Coords, EltTy.bits .f32 = 32 ∨ (Rect.block (s := S4x1x1x1024) S1x1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1x1024.size a ≤ S4x1x1x1024.size a
  hwx0_3 : ∀ i : grid0.Coords, EltTy.bits .f32 = 32 ∨ (Rect.block (s := S4x1x1x1024) S1x1x1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1x1024.size a ≤ S4x1x1x1024.size a
  hwx0_4 : ∀ i : grid0.Coords, EltTy.bits .f32 = 32 ∨ (Rect.block (s := S4x1x1x1024) S1x1x1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x16x64x1024.size a ≤ S4x16x1024x1024.size a
  hwx0_5 : ∀ i : grid0.Coords, EltTy.bits .f32 = 32 ∨ (Rect.block (s := S4x16x1024x1024) S1x16x64x1024.size (cc0_transform_5 i) (hinb0_5 i)).WholeWords (EltTy.packing .f32)

variable [Facts₀]

def gather_S6x4_S4x1024x1_S4x1024x4_2_0_n_n_0_2_14 : GatherDims S6x4 S4x1024x1 S4x1024x4 where
  offsetDims := [2]
  collapsedSliceDims := [0]
  operandBatchingDims := []
  startIndicesBatchingDims := []
  startIndexMap := [0]
  indexVectorDim := 2
  sliceSizes := ![1, 4]
  wf := gather_S6x4_S4x1024x1_S4x1024x4_2_0_n_n_0_2_14_wf

abbrev win0_0 : Pipeline.Window sig grid0 :=
  Pipeline.Window.ofSpec (Memref.whole main_arg0) S1x16x64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S1x1x1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S1x1x1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x1x1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x1x1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v27) S1x16x64x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x16x1024x1024 : Shape := ⟨4, ![4, 16, 1024, 1024]⟩
abbrev S4x1024 : Shape := ⟨2, ![4, 1024]⟩
abbrev S6x4 : Shape := ⟨2, ![6, 4]⟩
abbrev S_ : Shape := ⟨0, ![]⟩
abbrev S4x1024x1 : Shape := ⟨3, ![4, 1024, 1]⟩
abbrev S4x1024x4 : Shape := ⟨3, ![4, 1024, 4]⟩
abbrev S4x1x1x1024 : Shape := ⟨4, ![4, 1, 1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S4x16x1024x1024, .f32⟩
  | .hbm, ⟨1, _⟩ => ⟨S4x1024, .i32⟩
  | .hbm, ⟨2, _⟩ => ⟨S6x4, .f32⟩
  | .hbm, ⟨3, _⟩ => ⟨S_, .i32⟩
  | .hbm, ⟨4, _⟩ => ⟨S4x1024, .i32⟩
  | .hbm, ⟨5, _⟩ => ⟨S4x1024, .i1⟩
  | .hbm, ⟨6, _⟩ => ⟨S_, .i32⟩
  | .hbm, ⟨7, _⟩ => ⟨S4x1024, .i32⟩
  | .hbm, ⟨8, _⟩ => ⟨S4x1024, .i32⟩
  | .hbm, ⟨9, _⟩ => ⟨S4x1024, .i32⟩
  | .hbm, ⟨10, _⟩ => ⟨S4x1024x1, .i32⟩
  | .hbm, ⟨11, _⟩ => ⟨S4x1024x4, .f32⟩
  | .hbm, ⟨12, _⟩ => ⟨S4x1024x1, .f32⟩
  | .hbm, ⟨13, _⟩ => ⟨S4x1024, .f32⟩
  | .hbm, ⟨14, _⟩ => ⟨S4x1x1x1024, .f32⟩
  | .hbm, ⟨15, _⟩ => ⟨S4x1024x1, .f32⟩
  | .hbm, ⟨16, _⟩ => ⟨S4x1024, .f32⟩
  | .hbm, ⟨17, _⟩ => ⟨S4x1x1x1024, .f32⟩
  | .hbm, ⟨18, _⟩ => ⟨S4x1024x1, .f32⟩
  | .hbm, ⟨19, _⟩ => ⟨S4x1024, .f32⟩
  | .hbm, ⟨20, _⟩ => ⟨S4x1x1x1024, .f32⟩
  | .hbm, ⟨21, _⟩ => ⟨S4x1024x1, .f32⟩
  | .hbm, ⟨22, _⟩ => ⟨S4x1024, .f32⟩
  | .hbm, ⟨23, _⟩ => ⟨S4x1x1x1024, .f32⟩
  | .hbm, ⟨24, _⟩ => ⟨S4x1x1x1024, .f32⟩
  | .hbm, ⟨25, _⟩ => ⟨S4x1x1x1024, .f32⟩
  | .hbm, ⟨26, _⟩ => ⟨S4x1x1x1024, .f32⟩
  | .hbm, ⟨27, _⟩ => ⟨S4x16x1024x1024, .f32⟩
  | .hbm, ⟨28, _⟩ => ⟨S4x16x1024x1024, .f32⟩
  | .hbm, ⟨29, _⟩ => ⟨S4x16x1024x1024, .f32⟩
  | .hbm, ⟨30, _⟩ => ⟨S4x16x1024x1024, .f32⟩
  | .hbm, ⟨31, _⟩ => ⟨S4x16x1024x1024, .f32⟩
  | .hbm, ⟨32, _⟩ => ⟨S4x16x1024x1024, .f32⟩
  | .hbm, ⟨33, _⟩ => ⟨S4x16x1024x1024, .f32⟩
  | .hbm, ⟨34, _⟩ => ⟨S4x16x1024x1024, .i1⟩
  | .hbm, ⟨35, _⟩ => ⟨S4x16x1024x1024, .f32⟩
  | .hbm, ⟨36, _⟩ => ⟨S4x16x1024x1024, .i1⟩
  | .hbm, ⟨37, _⟩ => ⟨S4x16x1024x1024, .f32⟩
  | .hbm, ⟨38, _⟩ => ⟨S4x16x1024x1024, .f32⟩
  | .hbm, ⟨39, _⟩ => ⟨S4x16x1024x1024, .f32⟩
  | .hbm, ⟨40, _⟩ => ⟨S4x16x1024x1024, .f32⟩
  | _, _ => ⟨S4x16x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_call0_v0 : Ref sig .tc := ⟨.hbm, 37, rfl⟩
abbrev main_v32 : Ref sig .tc := ⟨.hbm, 38, rfl⟩
abbrev main_call1_v0 : Ref sig .tc := ⟨.hbm, 39, rfl⟩
abbrev main_v33 : Ref sig .tc := ⟨.hbm, 40, rfl⟩

abbrev nD : Nat := 1
abbrev τ : Topo := Topo.v7x

variable {F : FTy → Type} [FloatOps F]

class Facts₀ : Prop where
  bcast_S_S4x1024 : S_.BroadcastsInDim S4x1024 (![] : Fin 0 → Fin S4x1024.rank)
  bcast_S4x1024_S4x1024x1_0_1 : S4x1024.BroadcastsInDim S4x1024x1 (![0, 1] : Fin 2 → Fin S4x1024x1.rank)
  slices_S4x1024x4_S4x1024x1_0_0_0 : S4x1024x4.Slices ![0, 0, 0] S4x1024x1
  shapeCasts_S4x1024x1_S4x1024 : S4x1024x1.ShapeCasts S4x1024
  bcast_S4x1024_S4x1x1x1024_0_3 : S4x1024.BroadcastsInDim S4x1x1x1024 (![0, 3] : Fin 2 → Fin S4x1x1x1024.rank)
  slices_S4x1024x4_S4x1024x1_0_0_1 : S4x1024x4.Slices ![0, 0, 1] S4x1024x1
  slices_S4x1024x4_S4x1024x1_0_0_2 : S4x1024x4.Slices ![0, 0, 2] S4x1024x1
  slices_S4x1024x4_S4x1024x1_0_0_3 : S4x1024x4.Slices ![0, 0, 3] S4x1024x1
  bcast_S4x1x1x1024_S4x16x1024x1024_0_1_2_3 : S4x1x1x1024.BroadcastsInDim S4x16x1024x1024 (![0, 1, 2, 3] : Fin 4 → Fin S4x16x1024x1024.rank)
  gather_S6x4_S4x1024x1_S4x1024x4_2_0_n_n_0_2_14_wf : GatherDims.WF S6x4 S4x1024x1 S4x1024x4 [2] [0] [] [0] [] 2 ![1, 4]

variable [Facts₀]

def gather_S6x4_S4x1024x1_S4x1024x4_2_0_n_n_0_2_14 : GatherDims S6x4 S4x1024x1 S4x1024x4 where
  offsetDims := [2]
  collapsedSliceDims := [0]
  operandBatchingDims := []
  startIndicesBatchingDims := []
  startIndexMap := [0]
  indexVectorDim := 2
  sliceSizes := ![1, 4]
  wf := gather_S6x4_S4x1024x1_S4x1024x4_2_0_n_n_0_2_14_wf

class Facts : Prop extends Facts₀ where

variable [Facts]
-- ==== Proof.ClipLaw.lean ====
/-
  The scalar law behind the certificate.

  A clipped ramp is given by two levels `y0 ≤ y1` and two knots `x0 < x1`: it is `y0` to the left of `x0`, `y1` to the
  right of `x1`, and on `[x0, x1]` the straight line through `(x0, y0)` and `(x1, y1)`.  Write `σ = (y1 - y0) / (x1 - x0)` for
  the slope of that line; `σ ≥ 0` because the levels are ordered and the knots strictly so.  The line itself,
  `ℓ(z) = z·σ + (y0 - σ·x0) = y0 + σ·(z - x0)`, is therefore non-decreasing, with `ℓ(x0) = y0` and `ℓ(x1) = y1`.  Hence

    * for `z < x0`:  `ℓ(z) ≤ y0`, so `min (max ℓ(z) y0) y1 = min y0 y1 = y0`;
    * for `x0 ≤ z ≤ x1`:  `y0 ≤ ℓ(z) ≤ y1`, so `min (max ℓ(z) y0) y1 = ℓ(z)`;
    * for `x1 < z`:  `ℓ(z) ≥ y1 ≥ y0`, so `min (max ℓ(z) y0) y1 = y1`.

  That is: clamping the line between the two levels IS the three-piece function.  Both hypotheses are needed — with the
  levels reversed (`y0 = 1, y1 = 0, x0 = 0, x1 = 1`, `z = -1`) the clamp gives `0` and the three-piece function `1`.

  The first theorem says this over the reals; the second carries it to the extended reals, where the two programs
  compute: every quantity is a real, so sums, differences and products of coercions are coercions, the quotient by the
  non-zero real `x1 - x0` is the product with its reciprocal, and the comparisons are the reals' own.
-/
import Idealize.ShloMosaic.PureOps.Ideal

noncomputable section

namespace Cert.ClipLaw

open Idealize.ShloMosaic

/-- Clamping the line through `(x0, y0)` and `(x1, y1)` between its two levels is the three-piece clipped ramp, for
    ordered levels and strictly ordered knots. -/
theorem clamp_line_eq_ramp (z y0 y1 x0 x1 : ℝ) (hx : x0 < x1) (hy : y0 ≤ y1) :
    min (max (z * ((y1 - y0) / (x1 - x0)) + (y0 - (y1 - y0) / (x1 - x0) * x0)) y0) y1
      = if z < x0 then y0 else if z ≤ x1 then y0 + (y1 - y0) / (x1 - x0) * (z - x0) else y1 := by
  have hd : 0 < x1 - x0 := sub_pos.mpr hx
  have hσ0 : 0 ≤ (y1 - y0) / (x1 - x0) := div_nonneg (sub_nonneg.mpr hy) hd.le
  have hσ1 : (y1 - y0) / (x1 - x0) * (x1 - x0) = y1 - y0 := div_mul_cancel₀ _ hd.ne'
  generalize (y1 - y0) / (x1 - x0) = σ at hσ0 hσ1 ⊢
  have e : z * σ + (y0 - σ * x0) = y0 + σ * (z - x0) := by ring
  rw [e]
  split_ifs with h1 h2
  · have h3 : σ * (z - x0) ≤ 0 := mul_nonpos_of_nonneg_of_nonpos hσ0 (by linarith)
    rw [max_eq_right (by linarith), min_eq_left hy]
  · have h3 : 0 ≤ σ * (z - x0) := mul_nonneg hσ0 (by linarith)
    have h4 : σ * (z - x0) ≤ σ * (x1 - x0) := mul_le_mul_of_nonneg_left (by linarith) hσ0
    rw [max_eq_left (by linarith), min_eq_left (by linarith)]
  · have h4 : σ * (x1 - x0) ≤ σ * (z - x0) := mul_le_mul_of_nonneg_left (by linarith) hσ0
    rw [max_eq_left (by linarith), min_eq_right (by linarith)]

/-- A comparison that holds selects the first value. -/
theorem select_one {α : Type} (a b : α) : Scalar.select (1#1) a b = a := by
  unfold Scalar.select; exact if_pos rfl

/-- A comparison that fails selects the second value. -/
theorem select_zero {α : Type} (a b : α) : Scalar.select (0#1) a b = b := by
  unfold Scalar.select; exact if_neg (by decide)

/-- The coercion of the reals into the extended reals is monotone, so it carries a maximum to the maximum. -/
theorem coe_max (a b : ℝ) : max (a : EReal) (b : EReal) = ((max a b : ℝ) : EReal) :=
  (EReal.coe_strictMono.monotone.map_max).symm

/-- … and a minimum to the minimum. -/
theorem coe_min (a b : ℝ) : min (a : EReal) (b : EReal) = ((min a b : ℝ) : EReal) :=
  (EReal.coe_strictMono.monotone.map_min).symm

/-- The strict comparison of two reals, read on the extended reals, is the reals' own. -/
theorem cmp_olt_coe (a b : ℝ) : Ideal.cmp .olt (a : EReal) (b : EReal) = if a < b then 1#1 else 0#1 := by
  by_cases h : a < b <;> simp [Ideal.cmp, EReal.coe_lt_coe_iff, h]

/-- The weak comparison of two reals, read on the extended reals, is the reals' own. -/
theorem cmp_ole_coe (a b : ℝ) : Ideal.cmp .ole (a : EReal) (b : EReal) = if a ≤ b then 1#1 else 0#1 := by
  by_cases h : a ≤ b <;> simp [Ideal.cmp, EReal.coe_le_coe_iff, h]

/-- `a > b` on the extended reals, for reals with `b < a`, holds. -/
theorem cmp_ogt_coe_of_lt {a b : ℝ} (h : b < a) : Ideal.cmp .ogt (a : EReal) (b : EReal) = 1#1 := by
  simp [Ideal.cmp, EReal.coe_lt_coe_iff, h]

/-- Selecting on a decided proposition is the `if` on it. -/
theorem select_ite {α : Type} (p : Prop) [Decidable p] (a b : α) :
    Scalar.select (if p then 1#1 else 0#1) a b = if p then a else b := by
  by_cases h : p
  · rw [if_pos h, if_pos h, select_one]
  · rw [if_neg h, if_neg h, select_zero]

/-- THE LAW ON THE EXTENDED REALS, in the two programs' own spelling.  Left: the slope `s` is the quotient
    `(y1 - y0) / (x1 - x0)` taken only where `x1 > x0` (elsewhere a stand-in divisor `one` and a stand-in slope `zero`,
    neither of which is reached for strictly ordered knots), the intercept is `y0 - s·x0`, and the line `z·s + c` is
    clamped between the levels.  Right: the three pieces selected by `z < x0` and `z ≤ x1`, the middle one
    `y0 + (y1 - y0)/(x1 - x0) · (z - x0)`.  All five quantities real, `x0 < x1`, `y0 ≤ y1`. -/
theorem clamp_line_eq_ramp_ereal (z y0 y1 x0 x1 : ℝ) (hx : x0 < x1) (hy : y0 ≤ y1) (one zero : EReal) :
    min (max ((z : EReal) *
            Scalar.select (Ideal.cmp .ogt (x1 : EReal) (x0 : EReal))
              (Ideal.div ((y1 : EReal) - (y0 : EReal))
                (Scalar.select (Ideal.cmp .ogt (x1 : EReal) (x0 : EReal)) ((x1 : EReal) - (x0 : EReal)) one)) zero
          + ((y0 : EReal) -
              Scalar.select (Ideal.cmp .ogt (x1 : EReal) (x0 : EReal))
                (Ideal.div ((y1 : EReal) - (y0 : EReal))
                  (Scalar.select (Ideal.cmp .ogt (x1 : EReal) (x0 : EReal)) ((x1 : EReal) - (x0 : EReal)) one)) zero
                * (x0 : EReal)))
          (y0 : EReal)) (y1 : EReal)
      = Scalar.select (Ideal.cmp .olt (z : EReal) (x0 : EReal)) (y0 : EReal)
          (Scalar.select (Ideal.cmp .ole (z : EReal) (x1 : EReal))
            ((y0 : EReal) + Ideal.div ((y1 : EReal) - (y0 : EReal)) ((x1 : EReal) - (x0 : EReal)) * ((z : EReal) - (x0 : EReal)))
            (y1 : EReal)) := by
  have hne : x1 - x0 ≠ 0 := (sub_pos.mpr hx).ne'
  have hq : Ideal.div ((y1 : EReal) - (y0 : EReal)) ((x1 : EReal) - (x0 : EReal))
      = (((y1 - y0) / (x1 - x0) : ℝ) : EReal) := by
    rw [← EReal.coe_sub, ← EReal.coe_sub, Ideal.div_coe hne, ← EReal.coe_mul, mul_one_div]
  rw [cmp_ogt_coe_of_lt hx, select_one, select_one, hq, cmp_olt_coe, cmp_ole_coe, select_ite, select_ite]
  rw [← EReal.coe_mul, ← EReal.coe_mul, ← EReal.coe_sub, ← EReal.coe_add, coe_max, coe_min,
    ← EReal.coe_sub, ← EReal.coe_mul, ← EReal.coe_add, clamp_line_eq_ramp z y0 y1 x0 x1 hx hy]
  split_ifs <;> rfl

end Cert.ClipLaw

end
-- ==== Proof.KernelArray.lean ====
/-
  The idealized kernel's result array as ONE function of the arrays the region finds.

  The grid has 4 × 16 points `(b, μ)`.  At a point the body sees the block `z[b, :, 64μ .. 64μ+63, :]` of the first
  operand (shape 1 × 16 × 64 × 1024) and, of each of the four parameter arrays (shape 4 × 1 × 1 × 1024: slope, intercept,
  lower level, upper level), the row `[b, 0, 0, :]`; it writes the block of the same position of the result.  Entry
  `(0, n, r, f)` of what it writes is

      min (max (z[b, n, 64μ + r, f] · s[b,0,0,f] + c[b,0,0,f]) lo[b,0,0,f]) hi[b,0,0,f]

  (the generated value leg reads the body's broadcasts: an entry of a 1 × 1 × 1 × 1024 row is repeated along the 16 × 64
  middle axes).  So every entry `i = (b, n, m, f)` of the result is the SAME expression of `z i` and of the four parameters
  at the column `(b, 0, 0, f)` under it — `clampLine` below — and, the 64 output blocks tiling the array, the array after
  the run IS that function.
-/
import proofs.«175112_j45406394253468_2_alg».proof.Proof.Gen.KernelIdeal.Value

set_option maxRecDepth 16384

noncomputable section

namespace Cert.KernelIdeal.ClipValue

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The parameter column under an entry of the result: `(b, n, m, f) ↦ (b, 0, 0, f)`. -/
abbrev col (i : S4x16x1024x1024.Idx) : S4x1x1x1024.Idx := fun a => match a with
  | ⟨0, _⟩ => ⟨(i 0).val, (i 0).isLt⟩
  | ⟨1, _⟩ => ⟨0, Nat.one_pos⟩
  | ⟨2, _⟩ => ⟨0, Nat.one_pos⟩
  | ⟨3, _⟩ => ⟨(i 3).val, (i 3).isLt⟩

/-- The line `z · s + c` clamped between the levels `lo` and `hi`, entry by entry, the four parameters read at the
    entry's column. -/
abbrev clampLine (z : S4x16x1024x1024.Idx → Elt F .f32) (s c lo hi : S4x1x1x1024.Idx → Elt F .f32) :
    S4x16x1024x1024.Idx → Elt F .f32 :=
  fun i => FloatOps.minimumf (FloatOps.maximumf (FloatOps.addf (FloatOps.mulf (z i) (s (col i))) (c (col i))) (lo (col i))) (hi (col i))

theorem offsets_zero : (![0, 0, 0, 0] : Fin 4 → Nat) = fun _ => 0 := funext fun a => by fin_cases a <;> rfl

/-- The printed index maps, decided over the 64 grid points: the first operand's block moves with the result's; each
    parameter's block follows the result's on the batch axis and stays at 0 on the others; the result's block index is
    `(b, 0, μ, 0)` with `b ≤ 3`, `μ ≤ 15`. -/
theorem index_maps : ∀ t : Fin cfg0.N,
    (win0_0.index t (0 : Fin 4) = win0_5.index t (0 : Fin 4) ∧ win0_0.index t (1 : Fin 4) = win0_5.index t (1 : Fin 4)
      ∧ win0_0.index t (2 : Fin 4) = win0_5.index t (2 : Fin 4) ∧ win0_0.index t (3 : Fin 4) = win0_5.index t (3 : Fin 4))
    ∧ (win0_1.index t (0 : Fin 4) = win0_5.index t (0 : Fin 4) ∧ win0_1.index t (1 : Fin 4) = 0
      ∧ win0_1.index t (2 : Fin 4) = 0 ∧ win0_1.index t (3 : Fin 4) = 0)
    ∧ (win0_2.index t (0 : Fin 4) = win0_5.index t (0 : Fin 4) ∧ win0_2.index t (1 : Fin 4) = 0
      ∧ win0_2.index t (2 : Fin 4) = 0 ∧ win0_2.index t (3 : Fin 4) = 0)
    ∧ (win0_3.index t (0 : Fin 4) = win0_5.index t (0 : Fin 4) ∧ win0_3.index t (1 : Fin 4) = 0
      ∧ win0_3.index t (2 : Fin 4) = 0 ∧ win0_3.index t (3 : Fin 4) = 0)
    ∧ (win0_4.index t (0 : Fin 4) = win0_5.index t (0 : Fin 4) ∧ win0_4.index t (1 : Fin 4) = 0
      ∧ win0_4.index t (2 : Fin 4) = 0 ∧ win0_4.index t (3 : Fin 4) = 0)
    ∧ (win0_5.index t (0 : Fin 4) ≤ 3 ∧ win0_5.index t (1 : Fin 4) = 0
      ∧ win0_5.index t (2 : Fin 4) ≤ 15 ∧ win0_5.index t (3 : Fin 4) = 0) :=
  (by decide +kernel : ∀ t : Fin grid0.N, _)

/-- Every block position `(b, 0, μ, 0)` of the result is some grid point's. -/
theorem index_onto : ∀ (b : Fin 4) (μ : Fin 16), ∃ t : Fin cfg0.N, win0_5.index t = ![b.val, 0, μ.val, 0] :=
  (by decide +kernel : ∀ (b : Fin 4) (μ : Fin 16), ∃ t : Fin grid0.N, win0_5.index t = ![b.val, 0, μ.val, 0])

/-- The block the body leaves, as a function of its five loads: the generated reading of its one store, entry by entry. -/
theorem block_eq (P0 : Vec F S1x16x64x1024 .f32) (P1 P2 P3 P4 : Vec F S1x1x1x1024 .f32) :
    View.canon [⟨r0_0, k0_pay1 P0 P1 P2 P3 P4⟩] = Value.E5 P0 P1 P2 P3 P4 :=
  funext fun y => Value.canon5_eq P0 P1 P2 P3 P4 y

/-- ONE POINT, for ANY five arrays in the operands' places: the body's block (the generated `E5` of the five blocks at
    `t`) is block `t` of `clampLine` of the arrays.  Entry `(0, n, r, f)` of the first operand's block at `(b, μ)` is
    array entry `(b, n, 64μ + r, f)`, the same position as in the result's block; entry `(0, 0, 0, f)` of a parameter's
    block is array entry `(b, 0, 0, f)`, the column under it. -/
theorem point_eq (A0 : S4x16x1024x1024.Idx → Elt F .f32) (A1 A2 A3 A4 : S4x1x1x1024.Idx → Elt F .f32) (t : Fin cfg0.N) :
    (cfg0.win 5).cut (grid0.coords t)
      (Value.E5 (((cfg0.win 0).blk t).view.read (Elt F) A0) (((cfg0.win 1).blk t).view.read (Elt F) A1)
        (((cfg0.win 2).blk t).view.read (Elt F) A2) (((cfg0.win 3).blk t).view.read (Elt F) A3)
        (((cfg0.win 4).blk t).view.read (Elt F) A4))
      = ((cfg0.win 5).blk t).view.read (Elt F) (clampLine A0 A1 A2 A3 A4) := by
  obtain ⟨⟨a0, a1, a2, a3⟩, ⟨b0, b1, b2, b3⟩, ⟨c0, c1, c2, c3⟩, ⟨d0, d1, d2, d3⟩, ⟨e0, e1, e2, e3⟩, ⟨f0, f1, f2, f3⟩⟩ := index_maps t
  funext j
  have hj0 : (j 0).val < 1 := (j 0).isLt
  have hj1 : (j 1).val < 16 := (j 1).isLt
  have hj2 : (j 2).val < 64 := (j 2).isLt
  have hj3 : (j 3).val < 1024 := (j 3).isLt
  show FloatOps.minimumf (FloatOps.maximumf (FloatOps.addf (FloatOps.mulf
        (A0 (((cfg0.win 0).blk t).view.emb (Value.ix5_0 j)))
        (A1 (((cfg0.win 1).blk t).view.emb (Value.ix5_1 j))))
        (A2 (((cfg0.win 2).blk t).view.emb (Value.ix5_2 j))))
        (A3 (((cfg0.win 3).blk t).view.emb (Value.ix5_3 j))))
        (A4 (((cfg0.win 4).blk t).view.emb (Value.ix5_4 j)))
      = clampLine A0 A1 A2 A3 A4 (((cfg0.win 5).blk t).view.emb j)
  have h0 : ((cfg0.win 0).blk t).view.emb (Value.ix5_0 j) = ((cfg0.win 5).blk t).view.emb j := by
    funext a; apply Fin.ext
    match a with
    | ⟨0, _⟩ => show win0_0.index t (0 : Fin 4) * 1 + 1 * 0 = win0_5.index t (0 : Fin 4) * 1 + 1 * (j 0).val; omega
    | ⟨1, _⟩ => show win0_0.index t (1 : Fin 4) * 16 + 1 * (j 1).val = win0_5.index t (1 : Fin 4) * 16 + 1 * (j 1).val; omega
    | ⟨2, _⟩ => show win0_0.index t (2 : Fin 4) * 64 + 1 * (j 2).val = win0_5.index t (2 : Fin 4) * 64 + 1 * (j 2).val; omega
    | ⟨3, _⟩ => show win0_0.index t (3 : Fin 4) * 1024 + 1 * (j 3).val = win0_5.index t (3 : Fin 4) * 1024 + 1 * (j 3).val; omega
  have h1 : ((cfg0.win 1).blk t).view.emb (Value.ix5_1 j) = col (((cfg0.win 5).blk t).view.emb j) := by
    funext a; apply Fin.ext
    match a with
    | ⟨0, _⟩ => show win0_1.index t (0 : Fin 4) * 1 + 1 * 0 = win0_5.index t (0 : Fin 4) * 1 + 1 * (j 0).val; omega
    | ⟨1, _⟩ => show win0_1.index t (1 : Fin 4) * 1 + 1 * 0 = 0; omega
    | ⟨2, _⟩ => show win0_1.index t (2 : Fin 4) * 1 + 1 * 0 = 0; omega
    | ⟨3, _⟩ => show win0_1.index t (3 : Fin 4) * 1024 + 1 * (j 3).val = win0_5.index t (3 : Fin 4) * 1024 + 1 * (j 3).val; omega
  have h2 : ((cfg0.win 2).blk t).view.emb (Value.ix5_2 j) = col (((cfg0.win 5).blk t).view.emb j) := by
    funext a; apply Fin.ext
    match a with
    | ⟨0, _⟩ => show win0_2.index t (0 : Fin 4) * 1 + 1 * 0 = win0_5.index t (0 : Fin 4) * 1 + 1 * (j 0).val; omega
    | ⟨1, _⟩ => show win0_2.index t (1 : Fin 4) * 1 + 1 * 0 = 0; omega
    | ⟨2, _⟩ => show win0_2.index t (2 : Fin 4) * 1 + 1 * 0 = 0; omega
    | ⟨3, _⟩ => show win0_2.index t (3 : Fin 4) * 1024 + 1 * (j 3).val = win0_5.index t (3 : Fin 4) * 1024 + 1 * (j 3).val; omega
  have h3 : ((cfg0.win 3).blk t).view.emb (Value.ix5_3 j) = col (((cfg0.win 5).blk t).view.emb j) := by
    funext a; apply Fin.ext
    match a with
    | ⟨0, _⟩ => show win0_3.index t (0 : Fin 4) * 1 + 1 * 0 = win0_5.index t (0 : Fin 4) * 1 + 1 * (j 0).val; omega
    | ⟨1, _⟩ => show win0_3.index t (1 : Fin 4) * 1 + 1 * 0 = 0; omega
    | ⟨2, _⟩ => show win0_3.index t (2 : Fin 4) * 1 + 1 * 0 = 0; omega
    | ⟨3, _⟩ => show win0_3.index t (3 : Fin 4) * 1024 + 1 * (j 3).val = win0_5.index t (3 : Fin 4) * 1024 + 1 * (j 3).val; omega
  have h4 : ((cfg0.win 4).blk t).view.emb (Value.ix5_4 j) = col (((cfg0.win 5).blk t).view.emb j) := by
    funext a; apply Fin.ext
    match a with
    | ⟨0, _⟩ => show win0_4.index t (0 : Fin 4) * 1 + 1 * 0 = win0_5.index t (0 : Fin 4) * 1 + 1 * (j 0).val; omega
    | ⟨1, _⟩ => show win0_4.index t (1 : Fin 4) * 1 + 1 * 0 = 0; omega
    | ⟨2, _⟩ => show win0_4.index t (2 : Fin 4) * 1 + 1 * 0 = 0; omega
    | ⟨3, _⟩ => show win0_4.index t (3 : Fin 4) * 1024 + 1 * (j 3).val = win0_5.index t (3 : Fin 4) * 1024 + 1 * (j 3).val; omega
  rw [h0, h1, h2, h3, h4]

/-- WHAT POINT `t` WRITES BACK is block `t` of `clampLine` of the arrays as the region finds them. -/
theorem flushed_eq (c : Dev nD) (t : Fin cfg0.N) :
    (dats m 0 c).flushed 5 t = ((cfg0.win 5).blk t).view.read (Elt F)
      (clampLine (V m c (Pipeline.arrRef spec0 0)) (V m c (Pipeline.arrRef spec0 1)) (V m c (Pipeline.arrRef spec0 2))
        (V m c (Pipeline.arrRef spec0 3)) (V m c (Pipeline.arrRef spec0 4))) := by
  show (cfg0.win 5).cut (grid0.coords t) ((dats m 0 c).after 5 t) = _
  rw [after0_5]
  unfold out0_5
  rw [block_eq]
  simp only [View.ld_unit_zero (S := S1x16x64x1024) offsets_zero, View.ld_unit_zero (S := S1x1x1x1024) offsets_zero]
  unfold iblk
  exact point_eq _ _ _ _ _ t

/-- An index of the result is in point `t`'s block iff each coordinate is in the block's range on its axis. -/
theorem mem_blk (t : Fin cfg0.N) (i : S4x16x1024x1024.Idx) :
    i ∈ ((cfg0.win 5).blk t).view.set ↔ ∀ a : Fin 4, win0_5.index t a * S1x16x64x1024.size a ≤ (i a).val
      ∧ (i a).val < win0_5.index t a * S1x16x64x1024.size a + S1x16x64x1024.size a := by
  show i ∈ ((View.whole main_v27).slice (win0_5.rect t)).set ↔ _
  rw [View.set_slice_whole, Rect.mem_set_unit]
  exact Iff.rfl

/-- The 64 blocks tile the result: entry `(b, n, m, f)` is in the block of the point with index `(b, 0, m / 64, 0)`. -/
theorem covered (i : S4x16x1024x1024.Idx) :
    ∃ t : Fin cfg0.N, (cfg0.win 5).flush t = true ∧ i ∈ ((cfg0.win 5).blk t).view.set := by
  have hi0 : (i 0).val < 4 := (i 0).isLt
  have hi1 : (i 1).val < 16 := (i 1).isLt
  have hi2 : (i 2).val < 1024 := (i 2).isLt
  have hi3 : (i 3).val < 1024 := (i 3).isLt
  obtain ⟨t, ht⟩ := index_onto ⟨(i 0).val, hi0⟩ ⟨(i 2).val / 64, by omega⟩
  have q0 : win0_5.index t (0 : Fin 4) = (i 0).val := congrFun ht 0
  have q1 : win0_5.index t (1 : Fin 4) = 0 := congrFun ht 1
  have q2 : win0_5.index t (2 : Fin 4) = (i 2).val / 64 := congrFun ht 2
  have q3 : win0_5.index t (3 : Fin 4) = 0 := congrFun ht 3
  refine ⟨t, flush0_5 t, ?_⟩
  rw [mem_blk]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 16 ≤ (i 1).val ∧ (i 1).val < win0_5.index t (1 : Fin 4) * 16 + 16; omega
  | ⟨2, _⟩ => show win0_5.index t (2 : Fin 4) * 64 ≤ (i 2).val ∧ (i 2).val < win0_5.index t (2 : Fin 4) * 64 + 64; omega
  | ⟨3, _⟩ => show win0_5.index t (3 : Fin 4) * 1024 ≤ (i 3).val ∧ (i 3).val < win0_5.index t (3 : Fin 4) * 1024 + 1024; omega

/-- THE RESULT ARRAY after the run is `clampLine` of the arrays as the region finds them. -/
theorem final (c : Dev nD) : (dats m 0 c).arrAt 5 cfg0.N
    = clampLine (V m c (Pipeline.arrRef spec0 0)) (V m c (Pipeline.arrRef spec0 1)) (V m c (Pipeline.arrRef spec0 2))
        (V m c (Pipeline.arrRef spec0 3)) (V m c (Pipeline.arrRef spec0 4)) :=
  (dats m 0 c).arrAt_eq_of_cover 5 _ (fun t _ => flushed_eq m c t) covered

/-- The run, re-posted: the result at `clampLine`, the arguments unchanged. -/
theorem run : θ_run defs (onTc (τ := τ) (main (F := F))) ⟨m, fun _ => 0, ρ⟩ fun r => ∀ c : Dev nD,
      r.2.mem ((c : Thread nD τ).loc main_v27)
        = clampLine (V m c (Pipeline.arrRef spec0 0)) (V m c (Pipeline.arrRef spec0 1)) (V m c (Pipeline.arrRef spec0 2))
        (V m c (Pipeline.arrRef spec0 3)) (V m c (Pipeline.arrRef spec0 4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.ClipValue

end
-- ==== Proof.KernelHost.lean ====
/-
  What the region finds in the four parameter arrays.

  Before the launch the host computes, from the gathered 4 × 1024 tables `y0, y1, x0, x1` (the same four the reference
  builds — the same slices of the same gather of the same arguments), the slope
  `s = if x1 > x0 then (y1 - y0) / (if x1 > x0 then x1 - x0 else 1) else 0` and the intercept `c = y0 - s · x0`, and
  reshapes `y0, y1, s, c` from 4 × 1024 to 4 × 1 × 1 × 1024.  So the four parameter arrays of the launch are those reshapes;
  each equation below is the host's operations composed, nothing more.
-/
import proofs.«175112_j45406394253468_2_alg».proof.Proof.Gen.KernelIdeal.Frame
import proofs.«175112_j45406394253468_2_alg».proof.Proof.Gen.ReferenceIdeal.Read
import Idealize.ShloMosaic.Lib.StableHlo.Run

noncomputable section

namespace Cert.KernelIdeal.ClipHost

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

/-- The slope the host computes from the four tables, guarded against a degenerate knot pair. -/
abbrev slopeOf (y0 y1 x0 x1 : FVec F S4x1024 .f32) : FVec F S4x1024 .f32 :=
  select (cmpf .ogt x1 x0)
    (Host.divf (subf y1 y0)
      (select (cmpf .ogt x1 x0) (subf x1 x0) (broadcastInDim S4x1024 ![] bcast_S_S4x1024 (constant S_ .f32 0x3F800000#32))))
    (broadcastInDim S4x1024 ![] bcast_S_S4x1024 (constant S_ .f32 0x00000000#32))

/-- The intercept `y0 - s · x0`. -/
abbrev interceptOf (y0 s x0 : FVec F S4x1024 .f32) : FVec F S4x1024 .f32 := subf y0 (mulf s x0)

/-- The lower-level array is the reshaped table `y0`. -/
theorem V_lo (c : Dev nD) : (V m c main_v23 : S4x1x1x1024.Idx → Elt F .f32)
    = shapeCast S4x1x1x1024 (Cert.ReferenceIdeal.Read.val_main_v8 (F := F) (m ((c : Thread nD τ).loc main_arg1)) (m ((c : Thread nD τ).loc main_arg2)))
        shapeCasts_S4x1024_S4x1x1x1024 := by
  dsimp only [V]
  simp only [hostOps0, hostOps0_1, hostOps0_2, hostOps0_3, hostOps0_4, List.flatten_cons, List.flatten_nil, List.append_nil, List.cons_append, List.nil_append]
  after_results_simp
  rfl

/-- The upper-level array is the reshaped table `y1`. -/
theorem V_hi (c : Dev nD) : (V m c main_v24 : S4x1x1x1024.Idx → Elt F .f32)
    = shapeCast S4x1x1x1024 (Cert.ReferenceIdeal.Read.val_main_v11 (F := F) (m ((c : Thread nD τ).loc main_arg1)) (m ((c : Thread nD τ).loc main_arg2)))
        shapeCasts_S4x1024_S4x1x1x1024 := by
  dsimp only [V]
  simp only [hostOps0, hostOps0_1, hostOps0_2, hostOps0_3, hostOps0_4, List.flatten_cons, List.flatten_nil, List.append_nil, List.cons_append, List.nil_append]
  after_results_simp
  rfl

/-- The intercept array is the reshaped `y0 - s · x0`. -/
theorem V_intercept (c : Dev nD) : (V m c main_v26 : S4x1x1x1024.Idx → Elt F .f32)
    = shapeCast S4x1x1x1024 (interceptOf
          (Cert.ReferenceIdeal.Read.val_main_v8 (F := F) (m ((c : Thread nD τ).loc main_arg1)) (m ((c : Thread nD τ).loc main_arg2)))
          (slopeOf
            (Cert.ReferenceIdeal.Read.val_main_v8 (F := F) (m ((c : Thread nD τ).loc main_arg1)) (m ((c : Thread nD τ).loc main_arg2)))
            (Cert.ReferenceIdeal.Read.val_main_v11 (F := F) (m ((c : Thread nD τ).loc main_arg1)) (m ((c : Thread nD τ).loc main_arg2)))
            (Cert.ReferenceIdeal.Read.val_main_v14 (F := F) (m ((c : Thread nD τ).loc main_arg1)) (m ((c : Thread nD τ).loc main_arg2)))
            (Cert.ReferenceIdeal.Read.val_main_v17 (F := F) (m ((c : Thread nD τ).loc main_arg1)) (m ((c : Thread nD τ).loc main_arg2))))
          (Cert.ReferenceIdeal.Read.val_main_v14 (F := F) (m ((c : Thread nD τ).loc main_arg1)) (m ((c : Thread nD τ).loc main_arg2))))
        shapeCasts_S4x1024_S4x1x1x1024 := by
  dsimp only [V]
  simp only [hostOps0, hostOps0_1, hostOps0_2, hostOps0_3, hostOps0_4, List.flatten_cons, List.flatten_nil, List.append_nil, List.cons_append, List.nil_append]
  after_results_simp
  rfl

/-- The slope array is the reshaped slope. -/
theorem V_slope (c : Dev nD) : (V m c main_v25 : S4x1x1x1024.Idx → Elt F .f32)
    = shapeCast S4x1x1x1024 (slopeOf
          (Cert.ReferenceIdeal.Read.val_main_v8 (F := F) (m ((c : Thread nD τ).loc main_arg1)) (m ((c : Thread nD τ).loc main_arg2)))
          (Cert.ReferenceIdeal.Read.val_main_v11 (F := F) (m ((c : Thread nD τ).loc main_arg1)) (m ((c : Thread nD τ).loc main_arg2)))
          (Cert.ReferenceIdeal.Read.val_main_v14 (F := F) (m ((c : Thread nD τ).loc main_arg1)) (m ((c : Thread nD τ).loc main_arg2)))
          (Cert.ReferenceIdeal.Read.val_main_v17 (F := F) (m ((c : Thread nD τ).loc main_arg1)) (m ((c : Thread nD τ).loc main_arg2))))
        shapeCasts_S4x1024_S4x1x1x1024 := by
  dsimp only [V]
  simp only [hostOps0, hostOps0_1, hostOps0_2, hostOps0_3, hostOps0_4, List.flatten_cons, List.flatten_nil, List.append_nil, List.cons_append, List.nil_append]
  after_results_simp
  rfl

end Cert.KernelIdeal.ClipHost

end
-- ==== Proof.RefRamp.lean ====
/-
  The idealized reference's result, entry by entry.

  The reference gathers one row `(y0, y1, x0, x1)` of the 6 × 4 table per `(b, f)` — four 4 × 1024 tables — and broadcasts
  each along the two middle axes of `z : 4 × 16 × 1024 × 1024`.  Entry `i = (b, n, m, f)` of its result therefore depends on
  `z i` and on the four tables at `(b, f)` only:

      if z i < x0 then y0 else if z i ≤ x1 then y0 + (y1 - y0) / (x1 - x0) · (z i - x0) else y1      (all four at (b, f)).

  Each step below is one generated read-at-an-index lemma: the two selects, the two comparisons, the sum, the product, the
  quotient and the differences are pointwise, and every broadcast reads its operand at the column `(b, 0, 0, f)`, which in
  turn reads the table at `(b, f)`.
-/
import proofs.«175112_j45406394253468_2_alg».proof.Proof.Gen.ReferenceIdeal.Read

noncomputable section

namespace Cert.ReferenceIdeal.RampValue

open Cert.ReferenceIdeal Cert.ReferenceIdeal.Gen Cert.ReferenceIdeal.Read Idealize.ShloMosaic

variable {F : FTy → Type} [FloatOps F]

/-- The table position under an entry of the result: `(b, n, m, f) ↦ (b, f)`. -/
abbrev row (i : S4x16x1024x1024.Idx) : S4x1024.Idx := fun a => match a with
  | ⟨0, _⟩ => ⟨(i 0).val, (i 0).isLt⟩
  | ⟨1, _⟩ => ⟨(i 3).val, (i 3).isLt⟩

/-- The three-piece clipped ramp of `z`, entry by entry, its levels `y0, y1` and knots `x0, x1` read from four 4 × 1024
    tables at the entry's `(b, f)`. -/
abbrev ramp (z : S4x16x1024x1024.Idx → Elt F .f32) (y0 y1 x0 x1 : S4x1024.Idx → Elt F .f32) :
    S4x16x1024x1024.Idx → Elt F .f32 :=
  fun i => Scalar.select (FloatOps.cmpf .olt (z i) (x0 (row i))) (y0 (row i))
    (Scalar.select (FloatOps.cmpf .ole (z i) (x1 (row i)))
      (FloatOps.addf (y0 (row i))
        (FloatOps.mulf (FloatOps.hostDivf (FloatOps.subf (y1 (row i)) (y0 (row i))) (FloatOps.subf (x1 (row i)) (x0 (row i))))
          (FloatOps.subf (z i) (x0 (row i)))))
      (y1 (row i)))

/-- The reference's result is the ramp of `z` over its four gathered tables. -/
theorem result_eq (z : (⟨S4x16x1024x1024, .f32⟩ : BufTy).Contents (Elt F)) (mask : (⟨S4x1024, .i32⟩ : BufTy).Contents (Elt F))
    (tbl : (⟨S6x4, .f32⟩ : BufTy).Contents (Elt F)) :
    val_main_v33 (F := F) z mask tbl
      = ramp z (val_main_v8 (F := F) mask tbl) (val_main_v11 (F := F) mask tbl) (val_main_v14 (F := F) mask tbl)
          (val_main_v17 (F := F) mask tbl) := by
  funext i
  simp only [val_main_v33_apply, val_main_v32_apply, val_main_v31_apply, val_main_v30_apply, val_main_v29_apply,
    val_main_v28_apply, val_main_v27_apply, val_main_v26_apply, val_main_v25_apply, val_main_v24_apply, val_main_v23_apply,
    val_main_v22_apply, val_main_v21_apply, val_main_v20_apply, val_main_v19_apply, val_main_call0_v0_apply,
    val_main_call1_v0_apply, val_main_v18_apply, val_main_v15_apply, val_main_v12_apply, val_main_v9_apply]
  rfl

end Cert.ReferenceIdeal.RampValue

end
-- ==== Proof.TableRows.lean ====
/-
  The four gathered tables, and what the precondition says of them.

  `eta[mask]` gathers, for each position `(b, f)`, ONE row of the 6 × 4 table: the row whose number is the (negative-wrapped)
  mask entry at `(b, f)`, clamped into `0 .. 5` as a gather clamps every start index.  The reference then slices the four
  columns apart, so its four 4 × 1024 tables at `(b, f)` are the four entries `(r, 0), (r, 1), (r, 2), (r, 3)` of ONE row
  `r = rowOf mask (b, f)` of the input table — whatever integers the mask holds.  Hence a fact about every ROW of the input
  table is a fact about the four tables at every position.

  The precondition (finiteness of `z` and of the table; in every row of the table the lower level at most the upper,
  `table[r, 0] ≤ table[r, 1]`, and the left knot strictly left of the right, `table[r, 2] < table[r, 3]`) is four
  `and`-reductions of comparisons: each is 1 only if every compared entry is.  On the extended reals `|x| < +∞` says `x` is
  a real number, and the two order tests are the order itself.
-/
import proofs.«175112_j45406394253468_2_alg».proof.Pre_finite_inputs
import proofs.«175112_j45406394253468_2_alg».proof.Proof.Gen.ReferenceIdeal.Read
import Idealize.ShloMosaic.Lib.ReduceAll
import Idealize.ShloMosaic.Lib.ValueIdx
import Idealize.ShloMosaic.Lib.Pipeline.Value
import Idealize.ShloMosaic.PureOps.Ideal

noncomputable section

namespace Cert.ReferenceIdeal.TableRows

open Cert.ReferenceIdeal Cert.ReferenceIdeal.Gen Cert.ReferenceIdeal.Read Idealize.ShloMosaic

/-! ## One gathered entry -/

section Gather

variable {α : Type}

/-- Entry `(r, k)` of the 6 × 4 table. -/
abbrev cell (r : Fin 6) (k : Fin 4) : S6x4.Idx := fun a => match a with
  | ⟨0, _⟩ => ⟨r.val, r.isLt⟩
  | ⟨1, _⟩ => ⟨k.val, k.isLt⟩

/-- Where entry `j = (b, f, k)` of the gathered array finds its start index: `(b, f, 0)`. -/
abbrev startAt (j : S4x1024x4.Idx) : S4x1024x1.Idx := fun a => match a with
  | ⟨0, _⟩ => ⟨(j 0).val, (j 0).isLt⟩
  | ⟨1, _⟩ => ⟨(j 1).val, (j 1).isLt⟩
  | ⟨2, _⟩ => ⟨0, Nat.one_pos⟩

/-- The row a start index names: read signed, clamped into `0 .. 5`. -/
def rowAt (idx : IVec S4x1024x1 32) (s : S4x1024x1.Idx) : Fin 6 := ⟨min (idx s).toInt.toNat 5, by omega⟩

/-- THE GATHER READ AT AN ENTRY: `(b, f, k)` of the gathered array is the table at row `rowAt idx (b, f, 0)`, column `k`. -/
theorem gathered_apply (tbl : S6x4.Idx → α) (idx : IVec S4x1024x1 32) (j : S4x1024x4.Idx) :
    Host.gather gather_S6x4_S4x1024x1_S4x1024x4_2_0_n_n_0_2_14 tbl idx j
      = tbl (cell (rowAt idx (startAt j)) ⟨(j 2).val, (j 2).isLt⟩) := by
  unfold Host.gather
  congr 1
  funext a
  refine Fin.ext ?_
  match a with
  | ⟨0, _⟩ =>
    show gather_S6x4_S4x1024x1_S4x1024x4_2_0_n_n_0_2_14.start j idx 0 + gather_S6x4_S4x1024x1_S4x1024x4_2_0_n_n_0_2_14.batchCoord j 0
      + gather_S6x4_S4x1024x1_S4x1024x4_2_0_n_n_0_2_14.offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S6x4_S4x1024x1_S4x1024x4_2_0_n_n_0_2_14.startIndexMap from List.mem_singleton.mpr rfl)]
    have hsi : gather_S6x4_S4x1024x1_S4x1024x4_2_0_n_n_0_2_14.siIdx j
        ⟨List.idxOf (0 : Fin 2) gather_S6x4_S4x1024x1_S4x1024x4_2_0_n_n_0_2_14.startIndexMap,
          List.idxOf_lt_length_iff.2 (List.mem_singleton.mpr rfl)⟩ = startAt j := by
      funext b; refine Fin.ext ?_
      match b with
      | ⟨0, _⟩ => rfl
      | ⟨1, _⟩ => rfl
      | ⟨2, _⟩ => rfl
    rw [hsi]
    rfl
  | ⟨1, _⟩ =>
    show gather_S6x4_S4x1024x1_S4x1024x4_2_0_n_n_0_2_14.start j idx 1 + gather_S6x4_S4x1024x1_S4x1024x4_2_0_n_n_0_2_14.batchCoord j 1
      + gather_S6x4_S4x1024x1_S4x1024x4_2_0_n_n_0_2_14.offCoord j 1 = (j 2).val
    rw [GatherDims.batchCoord_eq_zero _ _ _ List.not_mem_nil]
    unfold GatherDims.start
    rw [dif_neg (show (1 : Fin 2) ∉ gather_S6x4_S4x1024x1_S4x1024x4_2_0_n_n_0_2_14.startIndexMap by decide)]
    unfold GatherDims.offCoord
    rw [dif_pos (show (1 : Fin 2) ∈ gather_S6x4_S4x1024x1_S4x1024x4_2_0_n_n_0_2_14.sKept by decide)]
    simp only [Nat.zero_add, Nat.add_zero]
    rfl

end Gather

/-! ## The four tables at a position are one row of the input table -/

section Tables

variable (F : FTy → Type) [FloatOps F]

/-- The start index of position `(b, f)`: `(b, f, 0)`. -/
abbrev gatherAt (i : S4x1024.Idx) : S4x1024x1.Idx := fun a => match a with
  | ⟨0, _⟩ => ⟨(i 0).val, (i 0).isLt⟩
  | ⟨1, _⟩ => ⟨(i 1).val, (i 1).isLt⟩
  | ⟨2, _⟩ => ⟨0, Nat.one_pos⟩

/-- The row of the input table that position `(b, f)` gathers. -/
def rowOf (mask : (⟨S4x1024, .i32⟩ : BufTy).Contents (Elt F)) (i : S4x1024.Idx) : Fin 6 :=
  rowAt (val_main_v5 (F := F) mask) (gatherAt i)

variable {F}

/-- Entry `(b, f, k)` of the gathered array is entry `k` of the row position `(b, f)` gathers. -/
theorem gathered_cell (mask : (⟨S4x1024, .i32⟩ : BufTy).Contents (Elt F)) (tbl : (⟨S6x4, .f32⟩ : BufTy).Contents (Elt F))
    (i : S4x1024.Idx) (j : S4x1024x4.Idx) (k : Fin 4)
    (h0 : (j 0).val = (i 0).val) (h1 : (j 1).val = (i 1).val) (h2 : (j 2).val = k.val) :
    val_main_v6 (F := F) mask tbl j = tbl (cell (rowOf F mask i) k) := by
  unfold val_main_v6
  rw [gathered_apply]
  have hs : startAt j = gatherAt i := by
    funext a; refine Fin.ext ?_
    match a with
    | ⟨0, _⟩ => exact h0
    | ⟨1, _⟩ => exact h1
    | ⟨2, _⟩ => rfl
  have hk : (⟨(j 2).val, (j 2).isLt⟩ : Fin 4) = k := Fin.ext h2
  rw [hs, hk]
  rfl

variable (mask : (⟨S4x1024, .i32⟩ : BufTy).Contents (Elt F)) (tbl : (⟨S6x4, .f32⟩ : BufTy).Contents (Elt F)) (i : S4x1024.Idx)

/-- The lower level at `(b, f)` is entry 0 of the gathered row. -/
theorem lo_eq : val_main_v8 (F := F) mask tbl i = tbl (cell (rowOf F mask i) 0) := by
  have hi0 : (i 0).val < 4 := (i 0).isLt
  have hi1 : (i 1).val < 1024 := (i 1).isLt
  rw [val_main_v8_apply, val_main_v7_apply]
  exact gathered_cell mask tbl i _ 0 (by show ((i 0).val * 1024 + (i 1).val) / 1024 = (i 0).val; omega)
    (by show ((i 0).val * 1024 + (i 1).val) / 1 % 1024 = (i 1).val; omega) rfl

/-- The upper level at `(b, f)` is entry 1 of the gathered row. -/
theorem hi_eq : val_main_v11 (F := F) mask tbl i = tbl (cell (rowOf F mask i) 1) := by
  have hi0 : (i 0).val < 4 := (i 0).isLt
  have hi1 : (i 1).val < 1024 := (i 1).isLt
  rw [val_main_v11_apply, val_main_v10_apply]
  exact gathered_cell mask tbl i _ 1 (by show ((i 0).val * 1024 + (i 1).val) / 1024 = (i 0).val; omega)
    (by show ((i 0).val * 1024 + (i 1).val) / 1 % 1024 = (i 1).val; omega) rfl

/-- The left knot at `(b, f)` is entry 2 of the gathered row. -/
theorem left_eq : val_main_v14 (F := F) mask tbl i = tbl (cell (rowOf F mask i) 2) := by
  have hi0 : (i 0).val < 4 := (i 0).isLt
  have hi1 : (i 1).val < 1024 := (i 1).isLt
  rw [val_main_v14_apply, val_main_v13_apply]
  exact gathered_cell mask tbl i _ 2 (by show ((i 0).val * 1024 + (i 1).val) / 1024 = (i 0).val; omega)
    (by show ((i 0).val * 1024 + (i 1).val) / 1 % 1024 = (i 1).val; omega) rfl

/-- The right knot at `(b, f)` is entry 3 of the gathered row. -/
theorem right_eq : val_main_v17 (F := F) mask tbl i = tbl (cell (rowOf F mask i) 3) := by
  have hi0 : (i 0).val < 4 := (i 0).isLt
  have hi1 : (i 1).val < 1024 := (i 1).isLt
  rw [val_main_v17_apply, val_main_v16_apply]
  exact gathered_cell mask tbl i _ 3 (by show ((i 0).val * 1024 + (i 1).val) / 1024 = (i 0).val; omega)
    (by show ((i 0).val * 1024 + (i 1).val) / 1 % 1024 = (i 1).val; omega) rfl

end Tables

end Cert.ReferenceIdeal.TableRows

end
-- ==== Proof.PreFacts.lean ====
/-
  What the precondition gives.

  The precondition is the conjunction of four tests, each an `and` over all entries of a comparison:
    (1) `|z| < +∞` at every entry of `z`;        (2) `|table| < +∞` at every entry of the 6 × 4 table;
    (3) `table[r, 0] ≤ table[r, 1]` in every row;   (4) `table[r, 2] < table[r, 3]` in every row.
  An `and`-reduction is 1 only if every reduced entry is 1.  On the extended reals `|x| = max x (-x)`, and `max x (-x) < ⊤`
  excludes both infinities, so (1) and (2) say every entry is a real number; (3) and (4) are the order of the extended reals
  between two entries of one row, columns 0, 1 and columns 2, 3 (a column slice read at `(r, 0)` is the table at `(r, k)`).
-/
import proofs.«175112_j45406394253468_2_alg».proof.Pre_finite_inputs
import proofs.«175112_j45406394253468_2_alg».proof.Proof.TableRows
import Idealize.ShloMosaic.Lib.ReduceAll
import Idealize.ShloMosaic.Lib.Pipeline.Value
import Idealize.ShloMosaic.PureOps.Ideal

noncomputable section

namespace Cert.PreFacts

open Idealize.ShloMosaic Cert.ReferenceIdeal.TableRows

instance : Subsingleton Cert.Pre_finite_inputs.S_.Idx := ⟨fun a b => funext fun d => d.elim0⟩

/-- `|x| < +∞` on the extended reals: `x` is a real number. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- The weak order test is the order. -/
theorem le_of_cmp_ole {a b : EReal} (h : Ideal.cmp .ole a b = 1#1) : a ≤ b := by
  by_contra hn
  simp [Ideal.cmp, hn] at h

/-- The strict order test is the strict order. -/
theorem lt_of_cmp_olt {a b : EReal} (h : Ideal.cmp .olt a b = 1#1) : a < b := by
  by_contra hn
  simp [Ideal.cmp, hn] at h

/-- Row `r` of a one-column slice. -/
abbrev colCell (r : Fin 6) : Cert.Pre_finite_inputs.S6x1.Idx := fun a => match a with
  | ⟨0, _⟩ => ⟨r.val, r.isLt⟩
  | ⟨1, _⟩ => ⟨0, Nat.one_pos⟩

/-- THE PRECONDITION, READ: every entry of `z` and of the table is a real number, and every row of the table has its
    levels ordered and its knots strictly ordered. -/
theorem facts [Cert.Pre_finite_inputs.Facts]
    (z : FVec Ideal Cert.Pre_finite_inputs.S4x16x1024x1024 .f32) (mask : IVec Cert.Pre_finite_inputs.S4x1024 32)
    (tbl : FVec Ideal Cert.Pre_finite_inputs.S6x4 .f32)
    (h : Cert.Pre_finite_inputs.fn (F := Ideal) z mask tbl = fun _ => 1#1) :
    (∀ i, ∃ r : ℝ, z i = (r : EReal)) ∧ (∀ j, ∃ r : ℝ, tbl j = (r : EReal))
      ∧ (∀ r : Fin 6, tbl (cell r 0) ≤ tbl (cell r 1)) ∧ (∀ r : Fin 6, tbl (cell r 2) < tbl (cell r 3)) := by
  have h0 := congrFun h (fun a => a.elim0)
  dsimp only [Cert.Pre_finite_inputs.fn, Cert.Pre_finite_inputs.fn_part1] at h0
  obtain ⟨h123, h4⟩ := IntOp.andi_eq_one.mp h0
  obtain ⟨h12, h3⟩ := IntOp.andi_eq_one.mp h123
  obtain ⟨h1, h2⟩ := IntOp.andi_eq_one.mp h12
  have slice_at : ∀ (k : Fin 4) (hs : Cert.Pre_finite_inputs.S6x4.Slices ![0, k.val] Cert.Pre_finite_inputs.S6x1) (r : Fin 6),
      extractStridedSlice Cert.Pre_finite_inputs.S6x1 ![0, k.val] tbl hs (colCell r) = tbl (cell r k) := fun k hs r =>
    extractStridedSlice_apply ![0, k.val] tbl hs (colCell r) (cell r k) (fun a => match a with
      | ⟨0, _⟩ => by show r.val = 0 + r.val; omega
      | ⟨1, _⟩ => by show k.val = k.val + 0; omega)
  refine ⟨fun i => ?_, fun j => ?_, fun r => ?_, fun r => ?_⟩
  · exact real_of_abs_lt_inf (z i) (Host.reduce_andi_all _ _ _ _ _ h1 i)
  · exact real_of_abs_lt_inf (tbl j) (Host.reduce_andi_all _ _ _ _ _ h2 j)
  · have e := Host.reduce_andi_all _ _ _ _ _ h3 (colCell r)
    have e' : Ideal.cmp .ole (tbl (cell r 0)) (tbl (cell r 1)) = 1#1 := by
      rw [← slice_at 0 Cert.Pre_finite_inputs.Facts.slices_S6x4_S6x1_0_0 r, ← slice_at 1 Cert.Pre_finite_inputs.Facts.slices_S6x4_S6x1_0_1 r]
      exact e
    exact le_of_cmp_ole e'
  · have e := Host.reduce_andi_all _ _ _ _ _ h4 (colCell r)
    have e' : Ideal.cmp .olt (tbl (cell r 2)) (tbl (cell r 3)) = 1#1 := by
      rw [← slice_at 2 Cert.Pre_finite_inputs.Facts.slices_S6x4_S6x1_0_2 r, ← slice_at 3 Cert.Pre_finite_inputs.Facts.slices_S6x4_S6x1_0_3 r]
      exact e
    exact lt_of_cmp_olt e'

end Cert.PreFacts

end
-- ==== Proof.Bridge.lean ====
/-
  The two results are one array.

  Kernel side (the array after the run, and what the region finds in its parameter arrays): entry `i = (b, n, m, f)` is
  `min (max (z i · s + c) y0) y1` with `y0, y1` the two level tables at `(b, f)`, `s` the guarded slope
  `if x1 > x0 then (y1 - y0) / (if x1 > x0 then x1 - x0 else 1) else 0` and `c = y0 - s · x0` there — a 4 × 1024 table
  reshaped to 4 × 1 × 1 × 1024 and read at the column `(b, 0, 0, f)` is the table at `(b, f)`.  Reference side: entry `i` is
  the three-piece ramp of `z i` over the same four numbers.  The four numbers are one row of the input table, so by the
  precondition they are reals with `y0 ≤ y1` and `x0 < x1`, and `z i` is a real: the scalar law (clamping the line between its
  levels is the ramp) joins the two sides.
-/
import proofs.«175112_j45406394253468_2_alg».proof.Proof.ClipLaw
import proofs.«175112_j45406394253468_2_alg».proof.Proof.KernelArray
import proofs.«175112_j45406394253468_2_alg».proof.Proof.KernelHost
import proofs.«175112_j45406394253468_2_alg».proof.Proof.RefRamp
import proofs.«175112_j45406394253468_2_alg».proof.Proof.TableRows
import proofs.«175112_j45406394253468_2_alg».proof.Proof.PreFacts

noncomputable section

namespace Cert.Bridge

open Idealize.ShloMosaic Idealize.ShloMosaic.TcCoe Idealize.SL.Sem
open Cert.KernelIdeal Cert.KernelIdeal.Gen Cert.KernelIdeal.ClipValue Cert.KernelIdeal.ClipHost
open Cert.ReferenceIdeal.RampValue Cert.ReferenceIdeal.TableRows

/-- THE SCALAR LAW in the operations' own names at the exact instance: for real `z, y0, y1, x0, x1` with `y0 ≤ y1`,
    `x0 < x1`, the kernel's clamped line is the reference's ramp (`one`, `zero`: the guard's two stand-ins, never reached). -/
theorem clamp_eq_ramp_at (z y0 y1 x0 x1 one zero : Ideal .f32)
    (hz : ∃ r : ℝ, z = (r : EReal)) (h0 : ∃ r : ℝ, y0 = (r : EReal)) (h1 : ∃ r : ℝ, y1 = (r : EReal))
    (h2 : ∃ r : ℝ, x0 = (r : EReal)) (h3 : ∃ r : ℝ, x1 = (r : EReal)) (hy : (y0 : EReal) ≤ y1) (hx : (x0 : EReal) < x1) :
    FloatOps.minimumf (FloatOps.maximumf (FloatOps.addf
        (FloatOps.mulf z (Scalar.select (FloatOps.cmpf .ogt x1 x0)
          (FloatOps.hostDivf (FloatOps.subf y1 y0) (Scalar.select (FloatOps.cmpf .ogt x1 x0) (FloatOps.subf x1 x0) one)) zero))
        (FloatOps.subf y0 (FloatOps.mulf (Scalar.select (FloatOps.cmpf .ogt x1 x0)
          (FloatOps.hostDivf (FloatOps.subf y1 y0) (Scalar.select (FloatOps.cmpf .ogt x1 x0) (FloatOps.subf x1 x0) one)) zero) x0)))
        y0) y1
      = Scalar.select (FloatOps.cmpf .olt z x0) y0
          (Scalar.select (FloatOps.cmpf .ole z x1)
            (FloatOps.addf y0 (FloatOps.mulf (FloatOps.hostDivf (FloatOps.subf y1 y0) (FloatOps.subf x1 x0)) (FloatOps.subf z x0))) y1) := by
  obtain ⟨z, rfl⟩ := hz
  obtain ⟨y0, rfl⟩ := h0
  obtain ⟨y1, rfl⟩ := h1
  obtain ⟨x0, rfl⟩ := h2
  obtain ⟨x1, rfl⟩ := h3
  exact Cert.ClipLaw.clamp_line_eq_ramp_ereal z y0 y1 x0 x1 (EReal.coe_lt_coe_iff.mp hx) (EReal.coe_le_coe_iff.mp hy) one zero

/-- A 4 × 1024 table reshaped to 4 × 1 × 1 × 1024, read at the column under entry `i`, is the table at `i`'s `(b, f)`. -/
theorem reshaped_at_col {α : Type} (X : S4x1024.Idx → α) (i : S4x16x1024x1024.Idx) :
    shapeCast S4x1x1x1024 X shapeCasts_S4x1024_S4x1x1x1024 (col i) = X (row i) :=
  shapeCast_apply X shapeCasts_S4x1024_S4x1x1x1024 (col i) (row i) (by
    rw [Shape.rowMajor_val_two, Shape.rowMajor_val_four]
    show (i 0).val * 1024 + (i 3).val = (((i 0).val * 1 + 0) * 1 + 0) * 1024 + (i 3).val
    omega)

variable (m : (ℓ : Loc nD τ sig) → Buf (Elt Ideal) ℓ)

/-- THE BRIDGE: under the precondition the idealized kernel's result array is the idealized reference's result term, of
    the same three arguments. -/
theorem kernel_eq_reference [Cert.Pre_finite_inputs.Facts] (c : Dev nD)
    (hpre : Cert.Pre_finite_inputs.fn (F := Ideal) (m ((c : Thread nD τ).loc main_arg0)) (m ((c : Thread nD τ).loc main_arg1))
      (m ((c : Thread nD τ).loc main_arg2)) = fun _ => 1#1) :
    clampLine (V m c (Pipeline.arrRef spec0 0)) (V m c (Pipeline.arrRef spec0 1)) (V m c (Pipeline.arrRef spec0 2))
        (V m c (Pipeline.arrRef spec0 3)) (V m c (Pipeline.arrRef spec0 4))
      = Cert.ReferenceIdeal.Read.val_main_v33 (F := Ideal) (m ((c : Thread nD τ).loc main_arg0)) (m ((c : Thread nD τ).loc main_arg1))
          (m ((c : Thread nD τ).loc main_arg2)) := by
  obtain ⟨hz, ht, hle, hlt⟩ := Cert.PreFacts.facts _ _ _ hpre
  rw [Cert.ReferenceIdeal.RampValue.result_eq]
  have e0 : V m c (Pipeline.arrRef spec0 0) = m ((c : Thread nD τ).loc main_arg0) := V_main_arg0 m c
  have e1 : V m c (Pipeline.arrRef spec0 1) = _ := V_slope m c
  have e2 : V m c (Pipeline.arrRef spec0 2) = _ := V_intercept m c
  have e3 : V m c (Pipeline.arrRef spec0 3) = _ := V_lo m c
  have e4 : V m c (Pipeline.arrRef spec0 4) = _ := V_hi m c
  rw [e0, e1, e2, e3, e4]
  funext i
  dsimp only [clampLine]
  rw [reshaped_at_col, reshaped_at_col, reshaped_at_col, reshaped_at_col]
  refine clamp_eq_ramp_at _ _ _ _ _ _ _ (hz i) ?_ ?_ ?_ ?_ ?_ ?_
  · rw [lo_eq]; exact ht _
  · rw [hi_eq]; exact ht _
  · rw [left_eq]; exact ht _
  · rw [right_eq]; exact ht _
  · rw [lo_eq, hi_eq]; exact hle _
  · rw [left_eq, right_eq]; exact hlt _

end Cert.Bridge

end
-- ==== Proof.lean ====
/-
  The certificate of a clipped-ramp kernel against its reference, at the exact (extended-real) instance.

  THE TWO PROGRAMS.  Both gather, per position `(b, f)`, one row `(y0, y1, x0, x1)` of a 6 × 4 table by an integer mask.  The
  reference returns, entry by entry over `z : 4 × 16 × 1024 × 1024`, the three-piece ramp: `y0` where `z < x0`,
  `y0 + (y1 - y0)/(x1 - x0) · (z - x0)` where `x0 ≤ z ≤ x1`, `y1` beyond.  The kernel precomputes on the host the slope
  `s = (y1 - y0)/(x1 - x0)` (guarded: `0` unless `x1 > x0`) and the intercept `c = y0 - s · x0`, and its body, over 4 × 16
  blocks of `z`, writes `min (max (z · s + c) y0) y1`.

  THE STATEMENT'S DOMAIN.  The two agree exactly when each row has ordered levels and strictly ordered knots: for
  `y0 ≤ y1`, `x0 < x1` the line `z · s + c` is non-decreasing, meets `y0` at `x0` and `y1` at `x1`, and clamping it between
  the levels is the ramp (Proof/ClipLaw.lean).  With the levels reversed they differ — `(y0, y1, x0, x1) = (1, 0, 0, 1)`,
  `z = -1`: the clamp is `0`, the ramp `1` — so the precondition carries, beside finiteness, that every row of the table is
  ordered so; both hypotheses, and the finiteness of `z` and of the table (the law is an identity of real arithmetic:
  `z · s + (y0 - s · x0) = y0 + s · (z - x0)` distributes), are used.

  THE PROOF.  Kernel: the array after the run is the clamped line over the arrays the region finds (Proof/KernelArray.lean:
  what one grid point writes, the 64 blocks tile the array), and those parameter arrays are the host's reshaped tables,
  slope and intercept (Proof/KernelHost.lean).  Reference: its result at an entry is the ramp over its four tables
  (Proof/RefRamp.lean).  The tables at a position are one row of the input table whatever the mask holds, a gather
  clamping its start index (Proof/TableRows.lean), so the precondition's row facts reach them (Proof/PreFacts.lean), and
  the scalar law closes each entry (Proof/Bridge.lean).  The three frames are the generated ones; the idealization
  rewrote nothing, so `preserves` is trivial.
-/
import proofs.«175112_j45406394253468_2_alg».proof.Defs
import proofs.«175112_j45406394253468_2_alg».proof.Proof.Gen.Kernel
import proofs.«175112_j45406394253468_2_alg».proof.Proof.Gen.Kernel.Skeleton
import proofs.«175112_j45406394253468_2_alg».proof.Proof.Gen.Kernel.Launch
import proofs.«175112_j45406394253468_2_alg».proof.Proof.Gen.Kernel.Points
import proofs.«175112_j45406394253468_2_alg».proof.Proof.Gen.Kernel.Frame
import proofs.«175112_j45406394253468_2_alg».proof.Proof.Gen.KernelIdeal
import proofs.«175112_j45406394253468_2_alg».proof.Proof.Gen.KernelIdeal.Skeleton
import proofs.«175112_j45406394253468_2_alg».proof.Proof.Gen.KernelIdeal.Launch
import proofs.«175112_j45406394253468_2_alg».proof.Proof.Gen.KernelIdeal.Points
import proofs.«175112_j45406394253468_2_alg».proof.Proof.Gen.KernelIdeal.Frame
import proofs.«175112_j45406394253468_2_alg».proof.Proof.Gen.ReferenceIdeal
import proofs.«175112_j45406394253468_2_alg».proof.Proof.Gen.KernelIdeal.Value
import proofs.«175112_j45406394253468_2_alg».proof.Proof.Gen.ReferenceIdeal.Run
import proofs.«175112_j45406394253468_2_alg».proof.Proof.Gen.ReferenceIdeal.Read
import proofs.«175112_j45406394253468_2_alg».proof.Proof.Gen.Pre_finite_inputs
import proofs.«175112_j45406394253468_2_alg».proof.Proof.Bridge
import Idealize.ShloMosaic.Adequacy
import Idealize.ShloMosaic.Init

noncomputable section

namespace Cert.Proof

open Idealize.ShloMosaic Idealize.SL.Sem

/-- The kernel as printed runs and leaves its arguments as they were: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs, from memories agreeing on the arguments, end with one and the same result array — the kernel's
    clamped line (its run, read) and the reference's ramp (its run, read) are equal under the precondition, entry by entry. -/
theorem algebraic : Cert.algebraic_KernelIdeal_ReferenceIdeal := by
  intro m ρ m' ρ' hpre hagree
  refine ⟨fun c => Cert.ReferenceIdeal.Read.val_main_v33 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.Bridge.kernel_eq_reference m c (hpre c)), (h c).2⟩)
      (Cert.KernelIdeal.ClipValue.run (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v33_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
